-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x32x32 : Shape := ⟨3, ![4096, 32, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32x32 : S_.BroadcastsInDim S4096x32x32 (![] : Fin 0 → Fin S4096x32x32.rank)
  reducesTo_S4096x32x32_S_d0_1_2 : S4096x32x32.ReducesTo [0, 1, 2] S_

variable [Facts]

def fn {F : FTy → Type} [FloatOps F] (main_arg0 : FVec F S8192x4096 .f32) (main_arg1 : FVec F S4096x32x32 .f32) (main_arg2 : IVec S4096 32) (main_arg3 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32x32 .f32 := Host.absf main_arg1
  let main_cst_0 : FVec F S_ .f32 := constant S_ .f32 0x7F800000#32
  let main_v5 : FVec F S4096x32x32 .f32 := broadcastInDim S4096x32x32 ![] bcast_S_S4096x32x32 main_cst_0
  let main_v6 : IVec S4096x32x32 1 := cmpf .olt main_v4 main_v5
  let main_c_1 : IVec S_ 1 := constantI S_ 1 1#1
  let main_v7 : IVec S_ 1 := (fun x v => Host.reduce IntOp.andi x v reducesTo_S4096x32x32_S_d0_1_2 h_S_) main_v6 main_c_1
  let main_v8 : IVec S_ 1 := andi main_v3 main_v7
  main_v8
-- ==== Kernel.lean ====
abbrev S8192x4096 : Shape := ⟨2, ![8192, 4096]⟩
abbrev S4096x32x32 : Shape := ⟨3, ![4096, 32, 32]⟩
abbrev S4096 : Shape := ⟨1, ![4096]⟩
abbrev S_ : Shape := ⟨0, ![]⟩
abbrev S128x128x32x32 : Shape := ⟨4, ![128, 128, 32, 32]⟩
abbrev S4096x1 : Shape := ⟨2, ![4096, 1]⟩
abbrev S4096x2 : Shape := ⟨2, ![4096, 2]⟩
abbrev S128x32x128x32 : Shape := ⟨4, ![128, 32, 128, 32]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 29
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x32x32, .f32⟩
  | .hbm, ⟨2, _⟩ => ⟨S4096, .i32⟩
  | .hbm, ⟨3, _⟩ => ⟨S4096, .i32⟩
  | .hbm, ⟨4, _⟩ => ⟨S_, .f32⟩
  | .hbm, ⟨5, _⟩ => ⟨S128x128x32x32, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x1, .i32⟩
  | .hbm, ⟨22, _⟩ => ⟨S4096x2, .i32⟩
  | .hbm, ⟨23, _⟩ => ⟨S128x128x32x32, .f32⟩
  | .hbm, ⟨24, _⟩ => ⟨S128x32x128x32, .f32⟩
  | .hbm, ⟨25, _⟩ => ⟨S4096x4096, .f32⟩
  | .hbm, ⟨26, _⟩ => ⟨S8192x4096, .bf16⟩
  | .hbm, ⟨27, _⟩ => ⟨S4096x4096, .bf16⟩
  | .hbm, ⟨28, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S128x128x32x32 : S_.BroadcastsInDim S128x128x32x32 (![] : Fin 0 → Fin S128x128x32x32.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  transposes_S128x128x32x32_S128x32x128x32_1_3_0_2 : S128x128x32x32.Transposes [1, 3, 0, 2] S128x32x128x32
  shapeCasts_S128x32x128x32_S4096x4096 : S128x32x128x32.ShapeCasts S4096x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  scatter_S128x128x32x32_S4096x2_S4096x32x32_12_01_01_1_wf : ScatterDims.WF S128x128x32x32 S4096x2 S4096x32x32 [1, 2] [0, 1] [0, 1] 1
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def scatter_S128x128x32x32_S4096x2_S4096x32x32_12_01_01_1 : ScatterDims S128x128x32x32 S4096x2 S4096x32x32 where
  updateWindowDims := [1, 2]
  insertedWindowDims := [0, 1]
  scatterDimsToOperandDims := [0, 1]
  indexVectorDim := 1
  wf := scatter_S128x128x32x32_S4096x2_S4096x32x32_12_01_01_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v17) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x32x32 : Shape := ⟨3, ![4096, 32, 32]⟩
abbrev S4096 : Shape := ⟨1, ![4096]⟩
abbrev S_ : Shape := ⟨0, ![]⟩
abbrev S128x128x32x32 : Shape := ⟨4, ![128, 128, 32, 32]⟩
abbrev S4096x1 : Shape := ⟨2, ![4096, 1]⟩
abbrev S4096x2 : Shape := ⟨2, ![4096, 2]⟩
abbrev S128x32x128x32 : Shape := ⟨4, ![128, 32, 128, 32]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x32x32, .f32⟩
  | .hbm, ⟨2, _⟩ => ⟨S4096, .i32⟩
  | .hbm, ⟨3, _⟩ => ⟨S4096, .i32⟩
  | .hbm, ⟨4, _⟩ => ⟨S_, .f32⟩
  | .hbm, ⟨5, _⟩ => ⟨S128x128x32x32, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x1, .i32⟩
  | .hbm, ⟨22, _⟩ => ⟨S4096x2, .i32⟩
  | .hbm, ⟨23, _⟩ => ⟨S128x128x32x32, .f32⟩
  | .hbm, ⟨24, _⟩ => ⟨S128x32x128x32, .f32⟩
  | .hbm, ⟨25, _⟩ => ⟨S4096x4096, .f32⟩
  | .hbm, ⟨26, _⟩ => ⟨S4096x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S128x128x32x32 : S_.BroadcastsInDim S128x128x32x32 (![] : Fin 0 → Fin S128x128x32x32.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  transposes_S128x128x32x32_S128x32x128x32_0_2_1_3 : S128x128x32x32.Transposes [0, 2, 1, 3] S128x32x128x32
  shapeCasts_S128x32x128x32_S4096x4096 : S128x32x128x32.ShapeCasts S4096x4096
  transposes_S4096x4096_S4096x4096_1_0 : S4096x4096.Transposes [1, 0] S4096x4096
  scatter_S128x128x32x32_S4096x2_S4096x32x32_12_01_01_1_wf : ScatterDims.WF S128x128x32x32 S4096x2 S4096x32x32 [1, 2] [0, 1] [0, 1] 1
  dot_S8192x4096_S4096x4096_S8192x4096_1_0_0_1_n_n_wf : DotDims.WF S8192x4096 S4096x4096 S8192x4096 [1] [0] [0] [1] [] []

variable [Facts₀]

def scatter_S128x128x32x32_S4096x2_S4096x32x32_12_01_01_1 : ScatterDims S128x128x32x32 S4096x2 S4096x32x32 where
  updateWindowDims := [1, 2]
  insertedWindowDims := [0, 1]
  scatterDimsToOperandDims := [0, 1]
  indexVectorDim := 1
  wf := scatter_S128x128x32x32_S4096x2_S4096x32x32_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BlockProduct.lean ====
/-
  What the kernel body computes on one pair of blocks.

  At each grid point the body loads a 512 × 4096 block of token activations and a 4096 × 1024 block of the dense weight,
  multiplies them on the matrix unit into a zero accumulator, and stores the 512 × 1024 product. On the extended reals the
  matrix product into zero is the plain sum: entry `(p, q)` of the product is the sum over the 4096 contracted positions
  `k` of `left[p, k] · right[k, q]` (`0 + s = s` is the only law used).
-/
import proofs.«142377_j49074296324503_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic

/-- Row `j 0` of the left block at contracted position `k`. -/
abbrev leftAt (j : S512x1024.Idx) (k : Fin 4096) : S512x4096.Idx := fun a => match a with
  | ⟨0, _⟩ => ⟨(j 0).val, (j 0).isLt⟩
  | ⟨1, _⟩ => ⟨k.val, k.isLt⟩
/-- Column `j 1` of the right block at contracted position `k`. -/
abbrev rightAt (j : S512x1024.Idx) (k : Fin 4096) : S4096x1024.Idx := fun a => match a with
  | ⟨0, _⟩ => ⟨k.val, k.isLt⟩
  | ⟨1, _⟩ => ⟨(j 1).val, (j 1).isLt⟩

/-- The left operand's row coordinate is the output's. -/
theorem lhs_row (j : S512x1024.Idx) (q : dot_S512x4096_S4096x1024_S512x1024_1_0_0_1_n_n.contr.Idx) :
    (dot_S512x4096_S4096x1024_S512x1024_1_0_0_1_n_n.lhsIdx j q 0).val = (j 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
/-- The left operand's column coordinate is the contracted position. -/
theorem lhs_col (j : S512x1024.Idx) (q : dot_S512x4096_S4096x1024_S512x1024_1_0_0_1_n_n.contr.Idx) :
    (dot_S512x4096_S4096x1024_S512x1024_1_0_0_1_n_n.lhsIdx j q 1).val = (q ⟨0, by decide⟩).val :=
  dot_S512x4096_S4096x1024_S512x1024_1_0_0_1_n_n.lhsIdx_val_of_single rfl j q
/-- The right operand's row coordinate is the contracted position. -/
theorem rhs_row (j : S512x1024.Idx) (q : dot_S512x4096_S4096x1024_S512x1024_1_0_0_1_n_n.contr.Idx) :
    (dot_S512x4096_S4096x1024_S512x1024_1_0_0_1_n_n.rhsIdx j q 0).val = (q ⟨0, by decide⟩).val :=
  dot_S512x4096_S4096x1024_S512x1024_1_0_0_1_n_n.rhsIdx_val_of_single rfl j q
/-- The right operand's column coordinate is the output's. -/
theorem rhs_col (j : S512x1024.Idx) (q : dot_S512x4096_S4096x1024_S512x1024_1_0_0_1_n_n.contr.Idx) :
    (dot_S512x4096_S4096x1024_S512x1024_1_0_0_1_n_n.rhsIdx j q 1).val = (j 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- THE BLOCK PRODUCT at an entry: the body's stored value at `(p, q)` is the sum over the contracted positions `k` of the
    left block's `(p, k)` times the right block's `(k, q)`. -/
theorem product_apply (x0 : FVec Ideal S512x4096 .bf16) (x1 : FVec Ideal S4096x1024 .bf16) (j : S512x1024.Idx) :
    k0_pay1 (F := Ideal) x0 x1 j = ∑ k : Fin 4096, x0 (leftAt j k) * x1 (rightAt j k) := by
  unfold k0_pay1
  rw [shapeCast_self, shapeCast_self]
  refine (Ideal.matmul_constant_zero_apply dot_S512x4096_S4096x1024_S512x1024_1_0_0_1_n_n none x0 x1 j).trans ?_
  rw [← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx j ((ValueIdx.contrEquiv1 dot_S512x4096_S4096x1024_S512x1024_1_0_0_1_n_n 4096 rfl rfl).symm k) = leftAt j k := funext fun a => Fin.ext (by
    match a with
    | ⟨0, _⟩ => exact lhs_row _ _
    | ⟨1, _⟩ => exact (lhs_col _ _).trans hk)
  have er : dot_S512x4096_S4096x1024_S512x1024_1_0_0_1_n_n.rhsIdx j ((ValueIdx.contrEquiv1 dot_S512x4096_S4096x1024_S512x1024_1_0_0_1_n_n 4096 rfl rfl).symm k) = rightAt j k := funext fun a => Fin.ext (by
    match a with
    | ⟨0, _⟩ => exact (rhs_row _ _).trans hk
    | ⟨1, _⟩ => exact rhs_col _ _)
  rw [el, er]

end Cert.KernelIdeal.BlockValue

end
-- ==== Proof.Spec.lean ====
/-
  The block-sparse linear layer as one function of its inputs.

  The weight of the layer is given as 4096 blocks of 32 × 32 numbers, scattered onto a 128 × 128 grid of blocks (block row =
  output features, block column = input features). Both programs first form the scattered four-axis array
  `s[ho, wo, bi, bj]` (block row, block column, row inside the block, column inside the block) and then lay it out as a
  dense matrix. Read as "input feature by output feature", entry `(k, o)` of that dense matrix is

      s[o / 32, k / 32, o % 32, k % 32]

  (`dense` below), and the layer's output for token `n` and output feature `o` is the sum over the 4096 input features
  `k` of `x[n, k] · dense[k, o]` (`linear`). The sum is over extended reals; no algebraic law is used on it anywhere in
  this certificate — both programs are shown to be this very sum, term by term.
-/
import Idealize.ShloMosaic.PureOps.Ideal
import Idealize.ShloMosaic.Lib.ValueIdx

noncomputable section

namespace Cert.BlockSparse

open Idealize.ShloMosaic

/-- Token activations, 8192 tokens by 4096 input features; also the shape of the output, 8192 tokens by 4096 output
    features. -/
abbrev Tokens : Shape := ⟨2, ![8192, 4096]⟩
/-- The dense weight laid out input feature by output feature. -/
abbrev Dense : Shape := ⟨2, ![4096, 4096]⟩
/-- The scattered blocks: block row, block column, row inside the block, column inside the block. -/
abbrev Blocks : Shape := ⟨4, ![128, 128, 32, 32]⟩

/-- Where entry `(k, o)` of the dense matrix (input feature `k`, output feature `o`) sits among the blocks: block row
    `o / 32`, block column `k / 32`, row `o % 32` and column `k % 32` inside the block. -/
abbrev blockIdx (i : Dense.Idx) : Blocks.Idx := fun a => match a with
  | ⟨0, _⟩ => ⟨(i 1).val / 32, by have h : (i 1).val < 4096 := (i 1).isLt; show (i 1).val / 32 < 128; omega⟩
  | ⟨1, _⟩ => ⟨(i 0).val / 32, by have h : (i 0).val < 4096 := (i 0).isLt; show (i 0).val / 32 < 128; omega⟩
  | ⟨2, _⟩ => ⟨(i 1).val % 32, by show (i 1).val % 32 < 32; omega⟩
  | ⟨3, _⟩ => ⟨(i 0).val % 32, by show (i 0).val % 32 < 32; omega⟩

/-- The dense matrix, input feature by output feature, of the scattered blocks `s`. -/
def dense (s : Blocks.Idx → EReal) : Dense.Idx → EReal := fun i => s (blockIdx i)

/-- Token `i 0`'s activation of input feature `k`. -/
abbrev rowAt (i : Tokens.Idx) (k : Fin 4096) : Tokens.Idx := fun a => match a with
  | ⟨0, _⟩ => ⟨(i 0).val, (i 0).isLt⟩
  | ⟨1, _⟩ => ⟨k.val, k.isLt⟩
/-- The weight joining input feature `k` to output feature `i 1`. -/
abbrev colAt (i : Tokens.Idx) (k : Fin 4096) : Dense.Idx := fun a => match a with
  | ⟨0, _⟩ => ⟨k.val, k.isLt⟩
  | ⟨1, _⟩ => ⟨(i 1).val, (i 1).isLt⟩

/-- The linear layer: output `(n, o)` is the sum over the input features `k` of `x[n, k] · w[k, o]`. -/
def linear (x : Tokens.Idx → EReal) (w : Dense.Idx → EReal) : Tokens.Idx → EReal :=
  fun i => ∑ k : Fin 4096, x (rowAt i k) * w (colAt i k)

end Cert.BlockSparse

end
-- ==== Proof.Operands.lean ====
/-
  What the kernel's pipeline finds in its two operand arrays.

  Before the pipeline starts, the kernel's program scatters the 32 × 32 blocks onto the 128 × 128 block grid (the same
  scatter, of the same index pairs, as the reference's), transposes the four-axis result to (block column, column in block,
  block row, row in block), flattens it to the 4096 × 4096 matrix "input feature by output feature", and narrows that
  matrix and the token activations to bf16. On the extended reals the narrowing is the identity. So the activations'
  array is the launch array itself, and the weight's array at `(k, o)`, row-major position `k · 4096 + o`, splits into
  block column `k / 32`, column `k % 32`, block row `o / 32`, row `o % 32`: the entry `dense` names.
-/
import proofs.«142377_j49074296324503_1_alg».proof.Proof.Gen.KernelIdeal.Frame
import proofs.«142377_j49074296324503_1_alg».proof.Proof.Spec
import Idealize.ShloMosaic.Lib.Pipeline.Value
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.StableHlo
open Cert.BlockSparse

/-- The scattered blocks as the program forms them from the block values `w` and the block-row and block-column
    indices `ri`, `ci` (a negative index counted from the end, the two index lists joined into pairs, each pair's block
    written into the zero array). Never opened: the reference forms the same array by the same operations. -/
def scattered {F : FTy → Type} [FloatOps F] (w : (⟨S4096x32x32, .f32⟩ : BufTy).Contents (Elt F))
    (ri ci : (⟨S4096, .i32⟩ : BufTy).Contents (Elt F)) : (⟨S128x128x32x32, .f32⟩ : BufTy).Contents (Elt F) :=
  Host.scatter scatter_S128x128x32x32_S4096x2_S4096x32x32_12_01_01_1 (fun _ b => b)
    (broadcastInDim S128x128x32x32 ![] bcast_S_S128x128x32x32 (constant S_ .f32 0x00000000#32))
    (concatenate S4096x2 1
      [⟨S4096x1, (broadcastInDim S4096x1 ![0] bcast_S4096_S4096x1_0 (select (cmpi .slt ri (broadcastInDim S4096 ![] bcast_S_S4096 (constantI S_ 32 0#32))) (addi ri (broadcastInDim S4096 ![] bcast_S_S4096 (constantI S_ 32 128#32))) ri))⟩,
       ⟨S4096x1, (broadcastInDim S4096x1 ![0] bcast_S4096_S4096x1_0 (select (cmpi .slt ci (broadcastInDim S4096 ![] bcast_S_S4096 (constantI S_ 32 0#32))) (addi ci (broadcastInDim S4096 ![] bcast_S_S4096 (constantI S_ 32 128#32))) ci))⟩]
      concatenates_S4096x1_S4096x1_S4096x2_d1)
    w

/-- Row-major position `k · 4096 + o` of the flat matrix, split over the transposed four-axis array: block column `k / 32`,
    column `k % 32`, block row `o / 32`, row `o % 32`. -/
abbrev splitIdx (j : S4096x4096.Idx) : S128x32x128x32.Idx := fun a => match a with
  | ⟨0, _⟩ => ⟨(j 0).val / 32, by have h : (j 0).val < 4096 := (j 0).isLt; show (j 0).val / 32 < 128; omega⟩
  | ⟨1, _⟩ => ⟨(j 0).val % 32, by show (j 0).val % 32 < 32; omega⟩
  | ⟨2, _⟩ => ⟨(j 1).val / 32, by have h : (j 1).val < 4096 := (j 1).isLt; show (j 1).val / 32 < 128; omega⟩
  | ⟨3, _⟩ => ⟨(j 1).val % 32, by show (j 1).val % 32 < 32; omega⟩

/-- The flattened transposition of any four-axis block array `s`, read at `(k, o)`, is `s` at block row `o / 32`, block
    column `k / 32`, row `o % 32`, column `k % 32`. -/
theorem layout_apply (s : FVec Ideal S128x128x32x32 .f32) (j : S4096x4096.Idx) :
    shapeCast S4096x4096 (transpose S128x32x128x32 [1, 3, 0, 2] s transposes_S128x128x32x32_S128x32x128x32_1_3_0_2)
      shapeCasts_S128x32x128x32_S4096x4096 j = dense s j := by
  refine (shapeCast_apply _ shapeCasts_S128x32x128x32_S4096x4096 j (splitIdx j) ?_).trans ?_
  · rewrite [Shape.rowMajor_val_four, Shape.rowMajor_val_two]
    have h0 : (j 0).val < 4096 := (j 0).isLt
    have h1 : (j 1).val < 4096 := (j 1).isLt
    show (((j 0).val / 32 * 32 + (j 0).val % 32) * 128 + (j 1).val / 32) * 32 + (j 1).val % 32 = (j 0).val * 4096 + (j 1).val
    omega
  · exact transpose_apply [1, 3, 0, 2] s transposes_S128x128x32x32_S128x32x128x32_1_3_0_2 (splitIdx j) (blockIdx j) (fun b => match b with
      | ⟨0, _⟩ => rfl
      | ⟨1, _⟩ => rfl
      | ⟨2, _⟩ => rfl
      | ⟨3, _⟩ => rfl)

variable (m : (ℓ : Loc nD τ sig) → Buf (Elt Ideal) ℓ)

/-- The activations' operand array, as the pipeline finds it, is the launch array of token activations. -/
theorem tokens_found (c : Dev nD) :
    (V m c main_v17 : S8192x4096.Idx → EReal) = m ((c : Thread nD τ).loc main_arg0) := by
  have e : (V m c main_v17 : S8192x4096.Idx → EReal)
      = truncf (F := Ideal) .bf16 (m ((c : Thread nD τ).loc main_arg0)) bitsLt_bf16_f32 := by
    dsimp only [V, hostOps0]; after_results <;> rfl
  rw [e]; rfl

set_option maxHeartbeats 4000000 in
/-- The weight's operand array, as the pipeline finds it, is the dense matrix of the scattered blocks. -/
theorem weight_found (c : Dev nD) :
    (V m c main_v18 : S4096x4096.Idx → EReal)
      = dense (scattered (F := Ideal) (m ((c : Thread nD τ).loc main_arg1)) (m ((c : Thread nD τ).loc main_arg2)) (m ((c : Thread nD τ).loc main_arg3))) := by
  have e : (V m c main_v18 : S4096x4096.Idx → EReal)
      = truncf (F := Ideal) .bf16 (shapeCast S4096x4096 (transpose S128x32x128x32 [1, 3, 0, 2]
          (scattered (F := Ideal) (m ((c : Thread nD τ).loc main_arg1)) (m ((c : Thread nD τ).loc main_arg2)) (m ((c : Thread nD τ).loc main_arg3)))
          transposes_S128x128x32x32_S128x32x128x32_1_3_0_2) shapeCasts_S128x32x128x32_S4096x4096) bitsLt_bf16_f32 := by
    dsimp only [V, hostOps0]; after_results <;> rfl
  rw [e]
  funext j
  refine (ValueIdx.truncf_apply _ bitsLt_bf16_f32 j).trans ?_
  exact layout_apply _ j

end Cert.KernelIdeal.Operands

end
-- ==== Proof.KernelLinear.lean ====
/-
  The kernel's whole output array is the linear layer of the launch inputs.

  The pipeline runs over a 4 × 16 grid. At point `(a, b)` it stages rows `512·b … 512·b + 511` of the token activations
  (all 4096 input features) and columns `1024·a … 1024·a + 1023` of the dense weight (all 4096 input features), and writes
  back the 512 × 1024 block of the output at block position `(b, a)`. The body's block product at `(p, q)` is the sum over
  the input features `k` of `activations[512·b + p, k] · weight[k, 1024·a + q]` — the linear layer's entry at the array
  index `(512·b + p, 1024·a + q)` of that block. The 64 blocks tile the 8192 × 4096 output, so the whole array ends as the
  linear layer of the launch activations and the dense matrix of the scattered blocks.
-/
import proofs.«142377_j49074296324503_1_alg».proof.Proof.Gen.KernelIdeal.Value
import proofs.«142377_j49074296324503_1_alg».proof.Proof.BlockProduct
import proofs.«142377_j49074296324503_1_alg».proof.Proof.Operands
import proofs.«142377_j49074296324503_1_alg».proof.Proof.Spec

noncomputable section

namespace Cert.KernelIdeal.WholeValue

open Cert.KernelIdeal Cert.KernelIdeal.Gen Idealize.ShloMosaic Idealize.ShloMosaic.TcCoe Idealize.SL.Sem
open Idealize.ShloMosaic.Pipeline (Dat)
open Cert.BlockSparse Cert.KernelIdeal.BlockValue Cert.KernelIdeal.Operands

variable (m : (ℓ : Loc nD τ sig) → Buf (Elt Ideal) ℓ) (ρ : Dev nD → PrngReg)

/-- The layer's output on core `c`, from the launch memory: the linear layer of the token activations and the dense
    matrix of the scattered blocks. -/
def out (c : Dev nD) : S8192x4096.Idx → EReal :=
  linear (m ((c : Thread nD τ).loc main_arg0)) (dense (scattered (F := Ideal) (m ((c : Thread nD τ).loc main_arg1)) (m ((c : Thread nD τ).loc main_arg2)) (m ((c : Thread nD τ).loc main_arg3))))

theorem origin : (![0, 0] : Fin 2 → Nat) = fun _ => 0 := funext fun a => by fin_cases a <;> rfl

/-- The block positions over the grid, decided: the activations' block follows the output's block row and spans every
    input feature; the weight's block spans every input feature and follows the output's block column; the output's
    block positions stay inside the 16 × 4 arrangement of blocks. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every one of the 16 × 4 output blocks is some grid point's. -/
theorem every_block : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- One entry of one block, over any arrays: if the left block's row `p` reads the activations' row of the array index `i`
    and the right block's column `q` reads the weight's column of `i`, position by position, then the body's block product
    at `(p, q)` is the linear layer's entry at `i`. -/
theorem block_entry (X : S8192x4096.Idx → EReal) (W : S4096x4096.Idx → EReal)
    (x0 : FVec Ideal S512x4096 .bf16) (x1 : FVec Ideal S4096x1024 .bf16) (i : S8192x4096.Idx) (j : S512x1024.Idx)
    (hx : ∀ k : Fin 4096, x0 (leftAt j k) = X (rowAt i k)) (hw : ∀ k : Fin 4096, x1 (rightAt j k) = W (colAt i k)) :
    k0_pay1 (F := Ideal) x0 x1 j = linear X W i :=
  (product_apply x0 x1 j).trans (Finset.sum_congr rfl fun k _ => by rw [hx k, hw k])

/-- A block of an array of the activations' shape, read at a position of the block, is the array at the place that position
    has in the array — for any array. -/
theorem tokens_block_apply (A : S8192x4096.Idx → EReal) (t : Fin cfg0.N) (y : S512x4096.Idx) :
    ((cfg0.win 0).blk t).view.read (Elt Ideal) A y = A (((cfg0.win 0).blk t).view.emb y) := rfl

/-- The same for a block of an array of the dense weight's shape. -/
theorem weight_block_apply (A : S4096x4096.Idx → EReal) (t : Fin cfg0.N) (y : S4096x1024.Idx) :
    ((cfg0.win 1).blk t).view.read (Elt Ideal) A y = A (((cfg0.win 1).blk t).view.emb y) := rfl

/-- The activations' block at point `t`, row `p`, position `k`, is the launch activation of the token the output block's row
    `p` is, at input feature `k`. -/
theorem left_read (c : Dev nD) (t : Fin cfg0.N) (j : S512x1024.Idx) (k : Fin 4096) :
    iblk m c 0 t (leftAt j k)
      = (m ((c : Thread nD τ).loc main_arg0) : S8192x4096.Idx → EReal) (rowAt (((cfg0.win 2).blk t).view.emb j) k) := by
  obtain ⟨e0, e1, e2, e3, -, -⟩ := block_positions t
  have found : iblk m c 0 t (leftAt j k)
      = ((cfg0.win 0).blk t).view.read (Elt Ideal) (m ((c : Thread nD τ).loc main_arg0) : S8192x4096.Idx → EReal) (leftAt j k) :=
    congrArg (fun X : S8192x4096.Idx → EReal => ((cfg0.win 0).blk t).view.read (Elt Ideal) X (leftAt j k)) (tokens_found m c)
  refine found.trans ((tokens_block_apply _ t _).trans ?_)
  refine congrArg (m ((c : Thread nD τ).loc main_arg0)) (funext fun a => Fin.ext ?_)
  match a with
  | ⟨0, _⟩ => show win0_0.index t (0 : Fin 2) * 512 + 1 * (j 0).val = win0_2.index t (0 : Fin 2) * 512 + 1 * (j 0).val; omega
  | ⟨1, _⟩ => show win0_0.index t (1 : Fin 2) * 4096 + 1 * k.val = k.val; omega

/-- The weight's block at point `t`, position `k`, column `q`, is the dense weight joining input feature `k` to the output
    feature the output block's column `q` is. -/
theorem right_read (c : Dev nD) (t : Fin cfg0.N) (j : S512x1024.Idx) (k : Fin 4096) :
    iblk m c 1 t (rightAt j k)
      = dense (scattered (F := Ideal) (m ((c : Thread nD τ).loc main_arg1)) (m ((c : Thread nD τ).loc main_arg2)) (m ((c : Thread nD τ).loc main_arg3))) (colAt (((cfg0.win 2).blk t).view.emb j) k) := by
  obtain ⟨e0, e1, e2, e3, -, -⟩ := block_positions t
  have found : iblk m c 1 t (rightAt j k)
      = ((cfg0.win 1).blk t).view.read (Elt Ideal) (dense (scattered (F := Ideal) (m ((c : Thread nD τ).loc main_arg1)) (m ((c : Thread nD τ).loc main_arg2)) (m ((c : Thread nD τ).loc main_arg3)))) (rightAt j k) :=
    congrArg (fun X : S4096x4096.Idx → EReal => ((cfg0.win 1).blk t).view.read (Elt Ideal) X (rightAt j k)) (weight_found m c)
  refine found.trans ((weight_block_apply _ t _).trans ?_)
  refine congrArg (dense (scattered (F := Ideal) (m ((c : Thread nD τ).loc main_arg1)) (m ((c : Thread nD τ).loc main_arg2)) (m ((c : Thread nD τ).loc main_arg3)))) (funext fun a => Fin.ext ?_)
  match a with
  | ⟨0, _⟩ => show win0_1.index t (0 : Fin 2) * 4096 + 1 * k.val = k.val; omega
  | ⟨1, _⟩ => show win0_1.index t (1 : Fin 2) * 1024 + 1 * (j 1).val = win0_2.index t (1 : Fin 2) * 1024 + 1 * (j 1).val; omega

/-- WHAT POINT `t` WRITES BACK is block `t` of the linear layer's output: entry `(p, q)` of the body's block product is
    the layer's sum at the array index the block's `(p, q)` sits at, factor by factor — the left factor read in the
    activations at the same row, the right factor in the dense weight at the same column. -/
theorem written_back (c : Dev nD) (t : Fin cfg0.N) :
    (dats m 0 c).flushed 2 t = ((cfg0.win 2).blk t).view.read (Elt Ideal) (out m c) := by
  rw [Cert.KernelIdeal.Value.flushed2]
  unfold out0_2
  rw [View.canon_unit_zero origin]
  simp only [View.ld_unit_zero (S := S512x4096) origin, View.ld_unit_zero (S := S4096x1024) origin]
  funext j
  show k0_pay1 (F := Ideal) (iblk m c 0 t) (iblk m c 1 t) j = out m c (((cfg0.win 2).blk t).view.emb j)
  exact block_entry (m ((c : Thread nD τ).loc main_arg0)) (dense (scattered (F := Ideal) (m ((c : Thread nD τ).loc main_arg1)) (m ((c : Thread nD τ).loc main_arg2)) (m ((c : Thread nD τ).loc main_arg3))))
    (iblk m c 0 t) (iblk m c 1 t) (((cfg0.win 2).blk t).view.emb j) j (left_read m c t j) (right_read m c t j)

/-- An index of the output array is in point `t`'s block iff each coordinate is in the block's range on its axis. -/
theorem in_block_iff (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v19).slice (win0_2.rect t)).set ↔ _
  rw [View.set_slice_whole, Rect.mem_set_unit]
  exact Iff.rfl

/-- The blocks tile the output: index `(n, o)` lies in the block at block position `(n / 512, o / 1024)`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [in_block_iff]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE OUTPUT ARRAY after the run is the linear layer's output. -/
theorem output_array (c : Dev nD) : (dats m 0 c).arrAt 2 cfg0.N = out m c :=
  (dats m 0 c).arrAt_eq_of_cover 2 (out m c) (fun t _ => written_back m c t) (covered)

/-- The kernel's run: every weakly fair execution terminates with the output array at the linear layer's output and the
    argument arrays unchanged. -/
theorem runs_to_linear : θ_run defs (onTc (τ := τ) (main (F := Ideal))) ⟨m, fun _ => 0, ρ⟩ fun r => ∀ c : Dev nD,
      r.2.mem ((c : Thread nD τ).loc main_v19) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_array m c), (h c).2⟩)
    (Cert.KernelIdeal.Value.run_blocks m ρ)

end Cert.KernelIdeal.WholeValue

end
-- ==== Proof.RefLinear.lean ====
/-
  The reference program is the linear layer of the dense matrix of the scattered blocks.

  After its scatter the reference transposes the four-axis array to (block row, row in block, block column, column in block),
  flattens it to the 4096 × 4096 weight "output feature by input feature", transposes that, and contracts the token
  activations with it. Reading those three layout steps at an index: entry `(k, o)` of the transposed weight is entry
  `(o, k)` of the flat weight, whose row-major position `o · 4096 + k` splits into block row `o / 32`, row `o % 32`, block
  column `k / 32`, column `k % 32` — the entry `dense` names. The contraction is then, term by term, the sum `linear`.
-/
import proofs.«142377_j49074296324503_1_alg».proof.Proof.Gen.ReferenceIdeal.Read
import proofs.«142377_j49074296324503_1_alg».proof.Proof.Spec

noncomputable section

namespace Cert.ReferenceIdeal.RefValue

open Cert.ReferenceIdeal Cert.ReferenceIdeal.Gen Cert.ReferenceIdeal.Read Idealize.ShloMosaic Cert.BlockSparse

/-- The weight the reference contracts with, read at `(k, o)`, is the scattered blocks' entry for input feature `k` and
    output feature `o`: through the outer transposition to `(o, k)`, through the flattening to row-major position
    `o · 4096 + k`, through the inner transposition to (block row, block column, row, column). -/
theorem weight_apply (x1 : (⟨S4096x32x32, .f32⟩ : BufTy).Contents (Elt Ideal)) (x2 x3 : (⟨S4096, .i32⟩ : BufTy).Contents (Elt Ideal))
    (j : S4096x4096.Idx) :
    val_main_v17 (F := Ideal) x1 x2 x3 j = dense (val_main_v14 (F := Ideal) x1 x2 x3) j := by
  rw [val_main_v17_apply, val_main_v16_apply, val_main_v15_apply]
  show _ = val_main_v14 (F := Ideal) x1 x2 x3 (blockIdx j)
  refine congrArg _ (funext fun a => Fin.ext ?_)
  have h0 : (j 0).val < 4096 := (j 0).isLt
  have h1 : (j 1).val < 4096 := (j 1).isLt
  match a with
  | ⟨0, _⟩ => show ((j 1).val * 4096 + (j 0).val) / 131072 = (j 1).val / 32; omega
  | ⟨1, _⟩ => show ((j 1).val * 4096 + (j 0).val) / 32 % 128 = (j 0).val / 32; omega
  | ⟨2, _⟩ => show ((j 1).val * 4096 + (j 0).val) / 4096 % 32 = (j 1).val % 32; omega
  | ⟨3, _⟩ => show ((j 1).val * 4096 + (j 0).val) % 32 = (j 0).val % 32; omega

/-- The reference's result is the linear layer of the token activations and the dense matrix of its scattered blocks:
    its contraction over the 4096 input features is the sum `linear` names, factor by factor. -/
theorem result_eq (x0 : (⟨S8192x4096, .f32⟩ : BufTy).Contents (Elt Ideal)) (x1 : (⟨S4096x32x32, .f32⟩ : BufTy).Contents (Elt Ideal))
    (x2 x3 : (⟨S4096, .i32⟩ : BufTy).Contents (Elt Ideal)) :
    val_main_v18 (F := Ideal) x0 x1 x2 x3 = linear x0 (dense (val_main_v14 (F := Ideal) x1 x2 x3)) := by
  funext i
  rw [val_main_v18_apply]
  show _ = ∑ k : Fin 4096, x0 (rowAt i k) * dense (val_main_v14 (F := Ideal) x1 x2 x3) (colAt i k)
  refine Finset.sum_congr rfl fun k _ => ?_
  rw [weight_apply]
  rfl

end Cert.ReferenceIdeal.RefValue

end
-- ==== Proof.lean ====
/-
  A block-sparse linear layer, `y = x · Wᵀ`, whose weight is given as 4096 blocks of 32 × 32 numbers placed on a
  128 × 128 grid of blocks: the kernel's program against the reference's, on the extended reals.

  Both programs scatter the blocks into the same four-axis array by the same operations on the same index pairs; that
  array is carried as one unopened term (`Operands.scattered` on the kernel's side, the reference's own scatter stage on
  the other; the two are the same term). The kernel's program lays it out as the dense matrix "input feature by output
  feature", narrows both operands to bf16 (the identity on the extended reals) and multiplies them block by block on a
  4 × 16 grid, each block contracting all 4096 input features at once; the reference lays it out "output feature by input
  feature", transposes, and contracts once. Read at an index, both layouts put the scattered entry
  `[o / 32, k / 32, o % 32, k % 32]` at input feature `k`, output feature `o` (`BlockSparse.dense`), and both results are,
  entry by entry, the same sum over `k` of `x[n, k] · dense[k, o]` (`BlockSparse.linear`) — the same terms in the same
  order, so no law of extended-real arithmetic beyond `0 + s = s` for the kernel's zero accumulator is used, and the
  finiteness of the inputs is never needed.

  The three frames are the generated frame runs (the reference's being its generated run with the result dropped); the
  idealization rewrote nothing, so `preserves` is trivial.
-/
import proofs.«142377_j49074296324503_1_alg».proof.Defs
import proofs.«142377_j49074296324503_1_alg».proof.Proof.Gen.Kernel
import proofs.«142377_j49074296324503_1_alg».proof.Proof.Gen.Kernel.Skeleton
import proofs.«142377_j49074296324503_1_alg».proof.Proof.Gen.Kernel.Launch
import proofs.«142377_j49074296324503_1_alg».proof.Proof.Gen.Kernel.Points
import proofs.«142377_j49074296324503_1_alg».proof.Proof.Gen.Kernel.Frame
import proofs.«142377_j49074296324503_1_alg».proof.Proof.Gen.KernelIdeal
import proofs.«142377_j49074296324503_1_alg».proof.Proof.Gen.KernelIdeal.Skeleton
import proofs.«142377_j49074296324503_1_alg».proof.Proof.Gen.KernelIdeal.Launch
import proofs.«142377_j49074296324503_1_alg».proof.Proof.Gen.KernelIdeal.Points
import proofs.«142377_j49074296324503_1_alg».proof.Proof.Gen.KernelIdeal.Frame
import proofs.«142377_j49074296324503_1_alg».proof.Proof.Gen.ReferenceIdeal
import proofs.«142377_j49074296324503_1_alg».proof.Proof.Gen.Pre_finite_inputs
import proofs.«142377_j49074296324503_1_alg».proof.Proof.Gen.KernelIdeal.Value
import proofs.«142377_j49074296324503_1_alg».proof.Proof.Gen.ReferenceIdeal.Run
import proofs.«142377_j49074296324503_1_alg».proof.Proof.Gen.ReferenceIdeal.Read
import proofs.«142377_j49074296324503_1_alg».proof.Proof.KernelLinear
import proofs.«142377_j49074296324503_1_alg».proof.Proof.RefLinear
import Idealize.ShloMosaic.Adequacy
import Idealize.ShloMosaic.Init

noncomputable section

namespace Cert.Proof

open Idealize.ShloMosaic Idealize.ShloMosaic.TcCoe Idealize.SL.Sem

/-- The scattered blocks are one term in both programs: the same scatter of the same block values at the same index
    pairs into the same zero array. -/
theorem scattered_eq (w : (⟨Cert.ReferenceIdeal.S4096x32x32, .f32⟩ : BufTy).Contents (Elt Ideal))
    (ri ci : (⟨Cert.ReferenceIdeal.S4096, .i32⟩ : BufTy).Contents (Elt Ideal)) :
    Cert.ReferenceIdeal.Read.val_main_v14 (F := Ideal) w ri ci = Cert.KernelIdeal.Operands.scattered (F := Ideal) w ri ci := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's output array ends at the linear layer of its launch inputs
    (`WholeValue.runs_to_linear`) and the reference's result at the linear layer of its own (`RefValue.result_eq`): the same
    function of the same arrays. -/
theorem algebraic : Cert.algebraic_KernelIdeal_ReferenceIdeal := by
  intro m ρ m' ρ' _ hagree
  refine ⟨fun c => Cert.KernelIdeal.WholeValue.out m c, Cert.KernelIdeal.WholeValue.runs_to_linear m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, scattered_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
